-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x128x16 : Shape := ⟨3, ![50000, 128, 16]⟩
abbrev S128x128 : Shape := ⟨2, ![128, 128]⟩
abbrev S128 : Shape := ⟨1, ![128]⟩
abbrev S128x16 : Shape := ⟨2, ![128, 16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x128x16 : S_.BroadcastsInDim S50000x128x16 (![] : Fin 0 → Fin S50000x128x16.rank)
  reducesTo_S50000x128x16_S_d0_1_2 : S50000x128x16.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_

variable [Facts]

def fn_part1 {F : FTy → Type} [FloatOps F] (main_arg4 : FVec F S128x16 .f32) (main_arg5 : FVec F S128x16 .f32) (main_arg6 : FVec F S128x16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg4
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S128x16 .f32 := Host.absf main_arg5
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  main_v33

def fn {F : FTy → Type} [FloatOps F] (main_arg0 : FVec F S50000x128 .f32) (main_arg1 : FVec F S50000x128x16 .f32) (main_arg2 : FVec F S128x128 .f32) (main_arg3 : FVec F S128 .f32) (main_arg4 : FVec F S128x16 .f32) (main_arg5 : FVec F S128x16 .f32) (main_arg6 : FVec F S128x16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128x16 .f32 := Host.absf main_arg1
  let main_cst_0 : FVec F S_ .f32 := constant S_ .f32 0x7F800000#32
  let main_v5 : FVec F S50000x128x16 .f32 := broadcastInDim S50000x128x16 ![] bcast_S_S50000x128x16 main_cst_0
  let main_v6 : IVec S50000x128x16 1 := cmpf .olt main_v4 main_v5
  let main_c_1 : IVec S_ 1 := constantI S_ 1 1#1
  let main_v7 : IVec S_ 1 := (fun x v => Host.reduce IntOp.andi x v reducesTo_S50000x128x16_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S50000x128 : Shape := ⟨2, ![50000, 128]⟩
abbrev S50000x128x16 : Shape := ⟨3, ![50000, 128, 16]⟩
abbrev S128x128 : Shape := ⟨2, ![128, 128]⟩
abbrev S128 : Shape := ⟨1, ![128]⟩
abbrev S128x16 : Shape := ⟨2, ![128, 16]⟩
abbrev S1x128 : Shape := ⟨2, ![1, 128]⟩
abbrev S50000x2048 : Shape := ⟨2, ![50000, 2048]⟩
abbrev S1x2048 : Shape := ⟨2, ![1, 2048]⟩
abbrev S1000x128 : Shape := ⟨2, ![1000, 128]⟩
abbrev S1000x2048 : Shape := ⟨2, ![1000, 2048]⟩
abbrev S1000x128x1 : Shape := ⟨3, ![1000, 128, 1]⟩
abbrev S1000x128x16 : Shape := ⟨3, ![1000, 128, 16]⟩

abbrev nBuf : Space → Nat
  | .hbm => 18
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S50000x128x16, .f32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S128x16, .f32⟩
  | .hbm, ⟨6, _⟩ => ⟨S128x16, .f32⟩
  | .hbm, ⟨7, _⟩ => ⟨S128x128, .f32⟩
  | .hbm, ⟨8, _⟩ => ⟨S1x128, .f32⟩
  | .hbm, ⟨9, _⟩ => ⟨S50000x2048, .f32⟩
  | .hbm, ⟨10, _⟩ => ⟨S128x16, .f32⟩
  | .hbm, ⟨11, _⟩ => ⟨S128x16, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S50000x128, .f32⟩
  | .hbm, ⟨16, _⟩ => ⟨S50000x2048, .f32⟩
  | .hbm, ⟨17, _⟩ => ⟨S50000x128x16, .f32⟩
  | .local _ .vmem, ⟨0, _⟩ => ⟨S1000x128, .f32⟩
  | .local _ .vmem, ⟨1, _⟩ => ⟨S1000x128, .f32⟩
  | .local _ .vmem, ⟨2, _⟩ => ⟨S1000x2048, .f32⟩
  | .local _ .vmem, ⟨3, _⟩ => ⟨S1000x2048, .f32⟩
  | .local _ .vmem, ⟨4, _⟩ => ⟨S128x128, .f32⟩
  | .local _ .vmem, ⟨5, _⟩ => ⟨S1x128, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1000x128, .f32⟩
  | .local _ .vmem, ⟨10, _⟩ => ⟨S1000x128, .f32⟩
  | .local _ .vmem, ⟨11, _⟩ => ⟨S1000x2048, .f32⟩
  | .local _ .vmem, ⟨12, _⟩ => ⟨S1000x2048, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S128x128_S128x128_1_0 : S128x128.Transposes [1, 0] S128x128
  shapeCasts_S128_S1x128 : S128.ShapeCasts S1x128
  shapeCasts_S50000x128x16_S50000x2048 : S50000x128x16.ShapeCasts S50000x2048
  shapeCasts_S128x16_S1x2048 : S128x16.ShapeCasts S1x2048
  inb_S1000x128_S1000x128_0_0 : ∀ a, (![0, 0] : Fin 2 → Nat) a + S1000x128.size a ≤ S1000x128.size a
  h_S1000x128 : 0 < S1000x128.numel
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x128_S1000x128 : S1x128.Broadcasts S1000x128
  shapeCasts_S1000x128_S1000x128x1 : S1000x128.ShapeCasts S1000x128x1
  broadcasts_S1000x128x1_S1000x128x16 : S1000x128x1.Broadcasts S1000x128x16
  shapeCasts_S1000x128x16_S1000x2048 : S1000x128x16.ShapeCasts S1000x2048
  broadcasts_S1x2048_S1000x2048 : S1x2048.Broadcasts S1000x2048
  shapeCasts_S1000x2048_S1000x128x16 : S1000x2048.ShapeCasts S1000x128x16
  reduces_S1000x128x16_S1000x128 : S1000x128x16.Reduces [2] S1000x128
  shapeCasts_S50000x2048_S50000x128x16 : S50000x2048.ShapeCasts S50000x128x16
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x2048.size a ≤ S50000x2048.size a
  hwx0_1 : ∀ i : grid0.Coords, EltTy.bits .f32 = 32 ∨ (Rect.block (s := S50000x2048) S1000x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S50000x128.size a
  hwx0_7 : ∀ i : grid0.Coords, EltTy.bits .f32 = 32 ∨ (Rect.block (s := S50000x128) S1000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x2048.size a ≤ S50000x2048.size a
  hwx0_8 : ∀ i : grid0.Coords, EltTy.bits .f32 = 32 ∨ (Rect.block (s := S50000x2048) S1000x2048.size (cc0_transform_8 i) (hinb0_8 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1000x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S1000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S1000x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x128x16 : Shape := ⟨3, ![50000, 128, 16]⟩
abbrev S128x128 : Shape := ⟨2, ![128, 128]⟩
abbrev S128 : Shape := ⟨1, ![128]⟩
abbrev S128x16 : Shape := ⟨2, ![128, 16]⟩
abbrev S1x128 : Shape := ⟨2, ![1, 128]⟩
abbrev S_ : Shape := ⟨0, ![]⟩
abbrev S50000x128x1 : Shape := ⟨3, ![50000, 128, 1]⟩
abbrev S1x128x16 : Shape := ⟨3, ![1, 128, 16]⟩

abbrev nBuf : Space → Nat
  | .hbm => 47
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128x16, .f32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S128x16, .f32⟩
  | .hbm, ⟨6, _⟩ => ⟨S128x16, .f32⟩
  | .hbm, ⟨7, _⟩ => ⟨S128x128, .f32⟩
  | .hbm, ⟨8, _⟩ => ⟨S50000x128, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S_, .f32⟩
  | .hbm, ⟨13, _⟩ => ⟨S50000x128, .f32⟩
  | .hbm, ⟨14, _⟩ => ⟨S50000x128, .f32⟩
  | .hbm, ⟨15, _⟩ => ⟨S50000x128, .f32⟩
  | .hbm, ⟨16, _⟩ => ⟨S50000x128, .f32⟩
  | .hbm, ⟨17, _⟩ => ⟨S50000x128, .i1⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S128x16, .f32⟩
  | .hbm, ⟨27, _⟩ => ⟨S128x16, .f32⟩
  | .hbm, ⟨28, _⟩ => ⟨S50000x128x1, .f32⟩
  | .hbm, ⟨29, _⟩ => ⟨S1x128x16, .f32⟩
  | .hbm, ⟨30, _⟩ => ⟨S50000x128x16, .f32⟩
  | .hbm, ⟨31, _⟩ => ⟨S50000x128x16, .f32⟩
  | .hbm, ⟨32, _⟩ => ⟨S50000x128x16, .f32⟩
  | .hbm, ⟨33, _⟩ => ⟨S50000x128x16, .f32⟩
  | .hbm, ⟨34, _⟩ => ⟨S50000x128x1, .f32⟩
  | .hbm, ⟨35, _⟩ => ⟨S50000x128x1, .f32⟩
  | .hbm, ⟨36, _⟩ => ⟨S1x128x16, .f32⟩
  | .hbm, ⟨37, _⟩ => ⟨S50000x128x16, .f32⟩
  | .hbm, ⟨38, _⟩ => ⟨S50000x128x16, .f32⟩
  | .hbm, ⟨39, _⟩ => ⟨S50000x128x16, .f32⟩
  | .hbm, ⟨40, _⟩ => ⟨S50000x128x16, .f32⟩
  | .hbm, ⟨41, _⟩ => ⟨S50000x128x16, .f32⟩
  | .hbm, ⟨42, _⟩ => ⟨S1x128x16, .f32⟩
  | .hbm, ⟨43, _⟩ => ⟨S50000x128x16, .f32⟩
  | .hbm, ⟨44, _⟩ => ⟨S50000x128x16, .f32⟩
  | .hbm, ⟨45, _⟩ => ⟨S_, .f32⟩
  | .hbm, ⟨46, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x128_S50000x128x1_0_1 : S50000x128.BroadcastsInDim S50000x128x1 (![0, 1] : Fin 2 → Fin S50000x128x1.rank)
  bcast_S128x16_S1x128x16_1_2 : S128x16.BroadcastsInDim S1x128x16 (![1, 2] : Fin 2 → Fin S1x128x16.rank)
  bcast_S50000x128x1_S50000x128x16_0_1_2 : S50000x128x1.BroadcastsInDim S50000x128x16 (![0, 1, 2] : Fin 3 → Fin S50000x128x16.rank)
  bcast_S1x128x16_S50000x128x16_0_1_2 : S1x128x16.BroadcastsInDim S50000x128x16 (![0, 1, 2] : Fin 3 → Fin S50000x128x16.rank)
  reducesTo_S50000x128x16_S50000x128_d2 : S50000x128x16.ReducesTo [2] S50000x128
  h_S_ : 0 < S_.numel
  dot_S50000x128_S128x128_S50000x128_1_0_0_1_n_n_wf : DotDims.WF S50000x128 S128x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, stated once over the extended reals with no program in sight.

  One selective-state-space step on 50000 independent rows.  For row n, hidden unit j and state s:

    δ(n,j)   = softplus( Σ_k h(n,k) · W(j,k) + b(j) )
    u'(n,j,s) = u(n,j,s) · exp( δ(n,j) · (−exp logA(j,s)) ) + ( δ(n,j) · h(n,j) ) · B(j,s)
    y(n,j)   = Σ_s u'(n,j,s) · C(j,s)

  softplus is spelt as both programs spell it: max(x,0) + log1p(exp(−|x|)) behind a test x ≠ x that
  never fires on the extended reals (there is no NaN there); the test is kept so that nothing has to be
  argued about it.  Every row is independent of every other, so the pieces below are stated for ONE row
  (`lin`, `uElt`) and the arrays `U`, `Y` only say which entries of the arguments a result entry reads.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- softplus on the extended reals, in the guarded form max(x,0) + log(1 + e^(−|x|)). -/
def sp (x : EReal) : EReal :=
  Scalar.select (Ideal.cmp .une x x) x (max x 0 + Ideal.log1p (Ideal.exp (-(max x (-x)))))

/-- One entry of the linear layer: a row of h against a row of W, plus the bias entry. -/
def lin (hrow wrow : Fin 128 → EReal) (bj : EReal) : EReal := (∑ k : Fin 128, hrow k * wrow k) + bj

/-- One entry of the new state from the step size δ, the input h(n,j), the old state entry, the decay
    entry a = −exp logA(j,s) and the input-matrix entry B(j,s). -/
def uElt (δ hj uv av bv : EReal) : EReal := uv * Ideal.exp (δ * av) + δ * hj * bv

section Arrays

variable (h : (⟨2, ![50000, 128]⟩ : Shape).Idx → EReal) (u : (⟨3, ![50000, 128, 16]⟩ : Shape).Idx → EReal)
  (W : (⟨2, ![128, 128]⟩ : Shape).Idx → EReal) (b : (⟨1, ![128]⟩ : Shape).Idx → EReal)
  (lA B C : (⟨2, ![128, 16]⟩ : Shape).Idx → EReal)

/-- The step size δ(n,j). -/
def delta (n : Fin 50000) (j : Fin 128) : EReal :=
  sp (lin (fun k => h (ix2 n k)) (fun k => W (ix2 j k)) (b (ix1 j)))

/-- The new state u'(n,j,s). -/
def U : (⟨3, ![50000, 128, 16]⟩ : Shape).Idx → EReal := fun i =>
  uElt (delta h W b (i 0) (i 1)) (h (ix2 (i 0) (i 1))) (u i) (-(Ideal.exp (lA (ix2 (i 1) (i 2))))) (B (ix2 (i 1) (i 2)))

/-- The output y(n,j): the new state contracted with C over the state axis. -/
def Y : (⟨2, ![50000, 128]⟩ : Shape).Idx → EReal := fun i =>
  ∑ s : Fin 16, U h u W b lA B (ix3 (i 0) (i 1) s) * C (ix2 (i 1) s)

end Arrays

end Cert.Spec

end
-- ==== Proof.Point.lean ====
/-
  What the kernel's body leaves in its two output blocks, entry by entry.

  At one grid point the body holds a block of 1000 rows: h as [1000,128], the old state flattened to
  [1000,2048] (column 16·j + s is hidden unit j, state s), W transposed, and the four parameter rows
  b [1,128] and a = −exp logA, B, C flattened to [1,2048].  It computes δ = softplus(h·Wᵀ + b) as a
  [1000,128] matrix and repeats every entry sixteen times along the row ([1000,128] → [1000,128,1] →
  [1000,128,16] → [1000,2048]) so that δ and h line up with the flattened state; the rest is entrywise,
  and the output y sums the sixteen consecutive columns of u'·C that belong to one hidden unit.
  So entry (p, 16·j + s) of the new-state block depends on row p of h, column j of Wᵀ, b(j), and the
  entries (p, 16·j + s) of the old state and (0, 16·j + s) of a and B — `Spec.uElt` of them —, and entry
  (p, j) of the output block is the sum over s of those against C.
-/
import proofs.«143947_j76132590289374_2_alg».proof.Proof.Gen.KernelIdeal.Frame
import proofs.«143947_j76132590289374_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Point

open Cert.KernelIdeal Cert.KernelIdeal.Gen Idealize.ShloMosaic Idealize.ShloMosaic.ValueIdx

/-- Column 16·j + s of a flattened row: hidden unit j, state s. -/
abbrev col (j : Fin 128) (s : Fin 16) : Fin 2048 := ⟨16 * j.val + s.val, by have := j.isLt; have := s.isLt; omega⟩

theorem hz : (![0, 0] : Fin 2 → Nat) = fun _ => 0 := funext fun a => by fin_cases a <;> rfl

/-! ## Layout: repeating along the row, and splitting the row again -/

section Layout
variable {α : Type}

/-- A [1000,128] matrix with every entry repeated sixteen times along its row: column 16·j + s of the
    [1000,2048] result is column j of the matrix. -/
theorem repeat16_apply (d : (⟨2, ![1000, 128]⟩ : Shape).Idx → α)
    (h1 : (⟨2, ![1000, 128]⟩ : Shape).ShapeCasts ⟨3, ![1000, 128, 1]⟩)
    (h2 : (⟨3, ![1000, 128, 1]⟩ : Shape).Broadcasts ⟨3, ![1000, 128, 16]⟩)
    (h3 : (⟨3, ![1000, 128, 16]⟩ : Shape).ShapeCasts ⟨2, ![1000, 2048]⟩)
    (p : Fin 1000) (j : Fin 128) (s : Fin 16) :
    shapeCast ⟨2, ![1000, 2048]⟩ (broadcastTo ⟨3, ![1000, 128, 16]⟩ (shapeCast ⟨3, ![1000, 128, 1]⟩ d h1) h2) h3 (ix2 p (col j s))
      = d (ix2 p j) := by
  refine (shapeCast_apply _ h3 (ix2 p (col j s)) (ix3 p j s) ?_).trans ?_
  · rw [Shape.rowMajor_val_three, Shape.rowMajor_val_two]
    show (p.val * 128 + j.val) * 16 + s.val = p.val * 2048 + (16 * j.val + s.val)
    omega
  refine (broadcastTo_apply _ h2 (ix3 p j s) (ix3 p j (0 : Fin 1)) (fun a => ?_)).trans ?_
  · match a with
    | ⟨0, _⟩ => show p.val = if (1000 : Nat) = 1 then 0 else p.val; rw [if_neg (by decide)]
    | ⟨1, _⟩ => show j.val = if (128 : Nat) = 1 then 0 else j.val; rw [if_neg (by decide)]
    | ⟨2, _⟩ => show 0 = if (1 : Nat) = 1 then 0 else s.val; rw [if_pos rfl]
  refine shapeCast_apply _ h1 (ix3 p j (0 : Fin 1)) (ix2 p j) ?_
  rw [Shape.rowMajor_val_three, Shape.rowMajor_val_two]
  show p.val * 128 + j.val = (p.val * 128 + j.val) * 1 + 0
  omega

/-- A [1000,2048] matrix seen as [1000,128,16]: entry (p, j, s) is column 16·j + s of row p. -/
theorem split16_apply (v : (⟨2, ![1000, 2048]⟩ : Shape).Idx → α)
    (h : (⟨2, ![1000, 2048]⟩ : Shape).ShapeCasts ⟨3, ![1000, 128, 16]⟩) (p : Fin 1000) (j : Fin 128) (s : Fin 16) :
    shapeCast ⟨3, ![1000, 128, 16]⟩ v h (ix3 p j s) = v (ix2 p (col j s)) := by
  refine shapeCast_apply _ h (ix3 p j s) (ix2 p (col j s)) ?_
  rw [Shape.rowMajor_val_three, Shape.rowMajor_val_two]
  show p.val * 2048 + (16 * j.val + s.val) = (p.val * 128 + j.val) * 16 + s.val
  omega

end Layout

/-! ## The two operations that are not entrywise -/

theorem lhs_coord0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

theorem lhs_coord1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q

theorem rhs_coord0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q

theorem rhs_coord1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- The block's matrix product into a zero accumulator, at (p, j): row p of the left operand against
    column j of the right. -/
theorem matmul_at (l : FVec Ideal S1000x128 .f32) (r : FVec Ideal S128x128 .f32) (p : Fin 1000) (j : Fin 128) :
    matmul dot_S1000x128_S128x128_S1000x128_1_0_0_1_n_n none l r (constant (F := Ideal) S1000x128 .f32 0x00000000#32) (ix2 p j)
      = ∑ k : Fin 128, l (ix2 p k) * r (ix2 k j) := by
  simp only [matmul]
  rw [Ideal.matmul_constant_zero_apply,
    ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p j)
      ((ValueIdx.contrEquiv1 dot_S1000x128_S128x128_S1000x128_1_0_0_1_n_n 128 rfl rfl).symm k) = ix2 p k :=
    funext fun a => Fin.ext (by
      match a with
      | ⟨0, _⟩ => exact lhs_coord0 _ _
      | ⟨1, _⟩ => exact (lhs_coord1 _ _).trans hk)
  have er : dot_S1000x128_S128x128_S1000x128_1_0_0_1_n_n.rhsIdx (ix2 p j)
      ((ValueIdx.contrEquiv1 dot_S1000x128_S128x128_S1000x128_1_0_0_1_n_n 128 rfl rfl).symm k) = ix2 k j :=
    funext fun a => Fin.ext (by
      match a with
      | ⟨0, _⟩ => exact (rhs_coord0 _ _).trans hk
      | ⟨1, _⟩ => exact rhs_coord1 _ _)
  rw [el, er]

/-- The sum over the last axis of a [1000,128,16] array, from zero, at (p, j): the sixteen entries (p, j, ·). -/
theorem lane_sum_at (src : FVec Ideal S1000x128x16 .f32) (p : Fin 1000) (j : Fin 128) :
    multiReduction .add [2] S1000x128 src 0x00000000#32 reduces_S1000x128x16_S1000x128 (.inl rfl) rfl (ix2 p j)
      = ∑ s : Fin 16, src (ix3 p j s) := by
  refine (Ideal.multiReduction_add_single src 0x00000000#32 reduces_S1000x128x16_S1000x128 (.inl rfl) rfl (ix2 p j)).trans ?_
  refine Finset.sum_congr rfl fun s _ => congrArg src ?_
  funext a
  apply Fin.ext
  match a with
  | ⟨0, _⟩ => rfl
  | ⟨1, _⟩ => rfl
  | ⟨2, _⟩ => rfl

/-! ## The body's values, regrouped

The body's arithmetic, cut where its mathematics cuts: the linear layer, softplus, the repetition. -/

/-- h·Wᵀ + b on the block. -/
def linBlk (x0 : FVec Ideal S1000x128 .f32) (x2 : FVec Ideal S128x128 .f32) (x3 : FVec Ideal S1x128 .f32) : FVec Ideal S1000x128 .f32 :=
  addf (matmul dot_S1000x128_S128x128_S1000x128_1_0_0_1_n_n none x0 (shapeCast S128x128 x2 shapeCasts_S128x128_S128x128)
      (constant (F := Ideal) S1000x128 .f32 0x00000000#32))
    (broadcastTo S1000x128 (shapeCast S1x128 x3 shapeCasts_S1x128_S1x128) broadcasts_S1x128_S1000x128)

/-- softplus on the block, as the body spells it. -/
def spBlk (v : FVec Ideal S1000x128 .f32) : FVec Ideal S1000x128 .f32 :=
  select (cmpf .one (subf v (broadcast S1000x128 (Scalar.ofBits (F := Ideal) .f32 0x00000000#32)))
      (subf v (broadcast S1000x128 (Scalar.ofBits (F := Ideal) .f32 0x00000000#32))))
    (addf v (broadcast S1000x128 (Scalar.ofBits (F := Ideal) .f32 0x00000000#32)))
    (addf (maximumf v (broadcast S1000x128 (Scalar.ofBits (F := Ideal) .f32 0x00000000#32)))
      (log1p (exp (subf (broadcast S1000x128 (Scalar.ofBits (F := Ideal) .f32 0x00000000#32))
        (absf (subf v (broadcast S1000x128 (Scalar.ofBits (F := Ideal) .f32 0x00000000#32))))))))

/-- Every entry repeated sixteen times along its row. -/
def rep16 (d : FVec Ideal S1000x128 .f32) : FVec Ideal S1000x2048 .f32 :=
  shapeCast S1000x2048 (broadcastTo S1000x128x16 (shapeCast S1000x128x1 d shapeCasts_S1000x128_S1000x128x1)
    broadcasts_S1000x128x1_S1000x128x16) shapeCasts_S1000x128x16_S1000x2048

theorem pay5_eq (x0 : FVec Ideal S1000x128 .f32) (x2 : FVec Ideal S128x128 .f32) (x3 : FVec Ideal S1x128 .f32) :
    k0_pay5 (F := Ideal) x0 x2 x3 = rep16 (spBlk (linBlk x0 x2 x3)) := rfl

theorem pay6_eq (x0 : FVec Ideal S1000x128 .f32) (x2 : FVec Ideal S128x128 .f32) (x3 : FVec Ideal S1x128 .f32) (x4 : FVec Ideal S1x2048 .f32) :
    k0_pay6 (F := Ideal) x0 x2 x3 x4
      = exp (mulf (k0_pay5 (F := Ideal) x0 x2 x3)
          (broadcastTo S1000x2048 (shapeCast S1x2048 x4 shapeCasts_S1x2048_S1x2048) broadcasts_S1x2048_S1000x2048)) := rfl

theorem pay7_eq (x0 : FVec Ideal S1000x128 .f32) (x2 : FVec Ideal S128x128 .f32) (x3 : FVec Ideal S1x128 .f32) (x5 : FVec Ideal S1x2048 .f32) :
    k0_pay7 (F := Ideal) x0 x2 x3 x5
      = mulf (mulf (k0_pay5 (F := Ideal) x0 x2 x3) (rep16 x0))
          (broadcastTo S1000x2048 (shapeCast S1x2048 x5 shapeCasts_S1x2048_S1x2048) broadcasts_S1x2048_S1000x2048) := rfl

/-! ## Read at an entry -/

theorem linBlk_at (x0 : FVec Ideal S1000x128 .f32) (x2 : FVec Ideal S128x128 .f32) (x3 : FVec Ideal S1x128 .f32)
    (p : Fin 1000) (j : Fin 128) :
    linBlk x0 x2 x3 (ix2 p j) = Spec.lin (fun k => x0 (ix2 p k)) (fun k => x2 (ix2 k j)) (x3 (ix2 (0 : Fin 1) j)) := by
  unfold linBlk
  rw [addf_apply, shapeCast_self, shapeCast_self, matmul_at, broadcastTo_1b_ab_apply]
  rfl

/-- The body's softplus at an entry is `Spec.sp` of the entry: x − 0 and x + 0 are x, and 0 − |x| is −|x|. -/
theorem spBlk_at (v : FVec Ideal S1000x128 .f32) (i : S1000x128.Idx) : spBlk v i = Spec.sp (v i) := by
  show Scalar.select (FloatOps.cmpf (F := Ideal) (φ := .f32) .one (v i - Ideal.ofBits .f32 0x00000000#32) (v i - Ideal.ofBits .f32 0x00000000#32))
      (v i + Ideal.ofBits .f32 0x00000000#32)
      (max (v i) (Ideal.ofBits .f32 0x00000000#32)
        + Ideal.log1p (Ideal.exp (Ideal.ofBits .f32 0x00000000#32
            - max (v i - Ideal.ofBits .f32 0x00000000#32) (-(v i - Ideal.ofBits .f32 0x00000000#32))))) = _
  generalize v i = x
  simp only [Ideal.ofBits_zero_f32, sub_zero, add_zero, zero_sub, Ideal.cmpf_def]
  rfl

theorem rep16_at (d : FVec Ideal S1000x128 .f32) (p : Fin 1000) (j : Fin 128) (s : Fin 16) :
    rep16 d (ix2 p (col j s)) = d (ix2 p j) :=
  repeat16_apply d _ _ _ p j s

/-- The repeated step size at (p, 16·j + s) is δ of row p and hidden unit j. -/
theorem pay5_at (x0 : FVec Ideal S1000x128 .f32) (x2 : FVec Ideal S128x128 .f32) (x3 : FVec Ideal S1x128 .f32)
    (p : Fin 1000) (j : Fin 128) (s : Fin 16) :
    k0_pay5 (F := Ideal) x0 x2 x3 (ix2 p (col j s))
      = Spec.sp (Spec.lin (fun k => x0 (ix2 p k)) (fun k => x2 (ix2 k j)) (x3 (ix2 (0 : Fin 1) j))) := by
  rw [pay5_eq, rep16_at, spBlk_at, linBlk_at]

/-- The decay factor exp(δ·a) at (p, q). -/
theorem pay6_at (x0 : FVec Ideal S1000x128 .f32) (x2 : FVec Ideal S128x128 .f32) (x3 : FVec Ideal S1x128 .f32) (x4 : FVec Ideal S1x2048 .f32)
    (p : Fin 1000) (q : Fin 2048) :
    k0_pay6 (F := Ideal) x0 x2 x3 x4 (ix2 p q) = Ideal.exp (k0_pay5 (F := Ideal) x0 x2 x3 (ix2 p q) * x4 (ix2 (0 : Fin 1) q)) := by
  rw [pay6_eq]
  show Ideal.exp (k0_pay5 (F := Ideal) x0 x2 x3 (ix2 p q)
    * broadcastTo S1000x2048 (shapeCast S1x2048 x4 shapeCasts_S1x2048_S1x2048) broadcasts_S1x2048_S1000x2048 (ix2 p q)) = _
  rw [shapeCast_self, broadcastTo_1b_ab_apply]

/-- The input term (δ·h)·B at (p, 16·j + s). -/
theorem pay7_at (x0 : FVec Ideal S1000x128 .f32) (x2 : FVec Ideal S128x128 .f32) (x3 : FVec Ideal S1x128 .f32) (x5 : FVec Ideal S1x2048 .f32)
    (p : Fin 1000) (j : Fin 128) (s : Fin 16) :
    k0_pay7 (F := Ideal) x0 x2 x3 x5 (ix2 p (col j s))
      = k0_pay5 (F := Ideal) x0 x2 x3 (ix2 p (col j s)) * x0 (ix2 p j) * x5 (ix2 (0 : Fin 1) (col j s)) := by
  rw [pay7_eq]
  show k0_pay5 (F := Ideal) x0 x2 x3 (ix2 p (col j s)) * rep16 x0 (ix2 p (col j s))
    * broadcastTo S1000x2048 (shapeCast S1x2048 x5 shapeCasts_S1x2048_S1x2048) broadcasts_S1x2048_S1000x2048 (ix2 p (col j s)) = _
  rw [shapeCast_self, broadcastTo_1b_ab_apply, rep16_at]

/-! ## The two stored blocks -/

/-- The new-state block is one store of the whole block: its payload. -/
theorem out8_eq (x0 : FVec Ideal S1000x128 .f32) (x1 : FVec Ideal S1000x2048 .f32) (x2 : FVec Ideal S128x128 .f32) (x3 : FVec Ideal S1x128 .f32)
    (x4 x5 x6 : FVec Ideal S1x2048 .f32) :
    out0_8 (F := Ideal) x0 x1 x2 x3 x4 x5 x6
      = k0_pay1 (F := Ideal) x1 (k0_pay6 (F := Ideal) x0 x2 x3 x4) (k0_pay7 (F := Ideal) x0 x2 x3 x5) := by
  unfold out0_8
  rw [View.canon_unit_zero hz]
  simp only [View.ld_unit_zero (S := S1000x128) hz, View.ld_unit_zero (S := S1000x2048) hz, View.ld_unit_zero (S := S128x128) hz,
    View.ld_unit_zero (S := S1x128) hz, View.ld_unit_zero (S := S1x2048) hz]
  unfold k0_pay3
  rw [shapeCast_self]

/-- Entry (p, 16·j + s) of the new-state block. -/
theorem out8_at (x0 : FVec Ideal S1000x128 .f32) (x1 : FVec Ideal S1000x2048 .f32) (x2 : FVec Ideal S128x128 .f32) (x3 : FVec Ideal S1x128 .f32)
    (x4 x5 x6 : FVec Ideal S1x2048 .f32) (p : Fin 1000) (j : Fin 128) (s : Fin 16) :
    out0_8 (F := Ideal) x0 x1 x2 x3 x4 x5 x6 (ix2 p (col j s))
      = Spec.uElt (Spec.sp (Spec.lin (fun k => x0 (ix2 p k)) (fun k => x2 (ix2 k j)) (x3 (ix2 (0 : Fin 1) j))))
          (x0 (ix2 p j)) (x1 (ix2 p (col j s))) (x4 (ix2 (0 : Fin 1) (col j s))) (x5 (ix2 (0 : Fin 1) (col j s))) := by
  rw [out8_eq]
  show x1 (ix2 p (col j s)) * k0_pay6 (F := Ideal) x0 x2 x3 x4 (ix2 p (col j s)) + k0_pay7 (F := Ideal) x0 x2 x3 x5 (ix2 p (col j s)) = _
  rw [pay6_at, pay7_at, pay5_at]
  rfl

/-- The output block is one store of the whole block: the new-state block against C, summed over each
    hidden unit's sixteen columns. -/
theorem out7_at (x0 : FVec Ideal S1000x128 .f32) (x1 : FVec Ideal S1000x2048 .f32) (x2 : FVec Ideal S128x128 .f32) (x3 : FVec Ideal S1x128 .f32)
    (x4 x5 x6 : FVec Ideal S1x2048 .f32) (p : Fin 1000) (j : Fin 128) :
    out0_7 (F := Ideal) x0 x1 x2 x3 x4 x5 x6 (ix2 p j)
      = ∑ s : Fin 16, out0_8 (F := Ideal) x0 x1 x2 x3 x4 x5 x6 (ix2 p (col j s)) * x6 (ix2 (0 : Fin 1) (col j s)) := by
  unfold out0_7
  rw [View.canon_unit_zero hz]
  simp only [View.ld_unit_zero (S := S1000x128) hz, View.ld_unit_zero (S := S1000x2048) hz, View.ld_unit_zero (S := S128x128) hz,
    View.ld_unit_zero (S := S1x128) hz, View.ld_unit_zero (S := S1x2048) hz]
  unfold k0_pay2 k0_pay3 k0_pay4
  rw [shapeCast_self, shapeCast_self]
  refine (lane_sum_at _ p j).trans ?_
  refine Finset.sum_congr rfl fun s _ => ?_
  rw [split16_apply, mulf_apply, broadcastTo_1b_ab_apply, out8_eq]

end Cert.KernelIdeal.Point

end
-- ==== Proof.Blocks.lean ====
/-
  From blocks to arrays: what the two result arrays of the region hold after the run.

  The grid has 50 points; point t stages rows 1000·t … 1000·t + 999 of h and of the flattened old state
  and the whole of the small operands, and writes back rows 1000·t … 1000·t + 999 of both results.  Every
  row of the results lies in exactly one point's block, and what that point writes there depends only on
  the same row of the inputs, so each result array is ONE function of the arrays the region finds
  (`newState`, `output`), read through the block.
-/
import proofs.«143947_j76132590289374_2_alg».proof.Proof.Point
import Idealize.ShloMosaic.Lib.Pipeline.Value

noncomputable section

namespace Cert.KernelIdeal.Hand

open Cert.KernelIdeal Cert.KernelIdeal.Gen Cert.KernelIdeal.Point
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where each window's block sits -/

/-- Block indices over the grid: the row-blocked windows (h, the old state, both results) sit at block
    row t, the small operands at block (0, 0); there are 50 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ t.val < 50 :=
  (by decide +kernel : ∀ t : Fin grid0.N, _)

/-- Row p of point t's block is row 1000·t + p of the array. -/
abbrev row (t : Fin cfg0.N) (p : Fin 1000) : Fin 50000 :=
  ⟨1000 * t.val + p.val, by have h := (idx_facts t).2.2.2.2.2.2.2.2.2.2.2.2.2.2.2.2.2.2; have := p.isLt; omega⟩

/-! ## The input blocks, read off the arrays the region finds -/

theorem blk0_at (c : Dev nD) (t : Fin cfg0.N) (p : Fin 1000) (k : Fin 128) :
    (iblk m c 0 t : FVec Ideal S1000x128 .f32) (ix2 p k) = (V m c main_arg0 : S50000x128.Idx → EReal) (ix2 (row t p) k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 1000 + 1 * p.val = 1000 * t.val + p.val; rw [e0]; omega
  | ⟨1, _⟩ => show win0_0.index t (1 : Fin 2) * 128 + 1 * k.val = k.val; rw [e1]; omega

theorem blk1_at (c : Dev nD) (t : Fin cfg0.N) (p : Fin 1000) (q : Fin 2048) :
    (iblk m c 1 t : FVec Ideal S1000x2048 .f32) (ix2 p q) = (V m c main_v2 : S50000x2048.Idx → EReal) (ix2 (row t p) q) := by
  obtain ⟨-, -, e0, e1, -⟩ := idx_facts t
  unfold iblk
  rw [View.read_apply]
  show V m c main_v2 _ = V m c main_v2 _
  refine congrArg (V m c main_v2) (funext fun a => Fin.ext ?_)
  match a with
  | ⟨0, _⟩ => show win0_1.index t (0 : Fin 2) * 1000 + 1 * p.val = 1000 * t.val + p.val; rw [e0]; omega
  | ⟨1, _⟩ => show win0_1.index t (1 : Fin 2) * 2048 + 1 * q.val = q.val; rw [e1]; omega

theorem blk2_at (c : Dev nD) (t : Fin cfg0.N) (k j : Fin 128) :
    (iblk m c 2 t : FVec Ideal S128x128 .f32) (ix2 k j) = (V m c main_v0 : S128x128.Idx → EReal) (ix2 k j) := by
  obtain ⟨-, -, -, -, e0, e1, -⟩ := idx_facts t
  unfold iblk
  rw [View.read_apply]
  show V m c main_v0 _ = V m c main_v0 _
  refine congrArg (V m c main_v0) (funext fun a => Fin.ext ?_)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

theorem blk3_at (c : Dev nD) (t : Fin cfg0.N) (j : Fin 128) :
    (iblk m c 3 t : FVec Ideal S1x128 .f32) (ix2 (0 : Fin 1) j) = (V m c main_v1 : S1x128.Idx → EReal) (ix2 (0 : Fin 1) j) := by
  obtain ⟨-, -, -, -, -, -, e0, e1, -⟩ := idx_facts t
  unfold iblk
  rw [View.read_apply]
  show V m c main_v1 _ = V m c main_v1 _
  refine congrArg (V m c main_v1) (funext fun a => Fin.ext ?_)
  match a with
  | ⟨0, _⟩ => show win0_3.index t (0 : Fin 2) * 1 + 1 * 0 = 0; rw [e0]
  | ⟨1, _⟩ => show win0_3.index t (1 : Fin 2) * 128 + 1 * j.val = j.val; rw [e1]; omega

theorem blk4_at (c : Dev nD) (t : Fin cfg0.N) (q : Fin 2048) :
    (iblk m c 4 t : FVec Ideal S1x2048 .f32) (ix2 (0 : Fin 1) q) = (V m c main_v5 : S1x2048.Idx → EReal) (ix2 (0 : Fin 1) q) := by
  obtain ⟨-, -, -, -, -, -, -, -, e0, e1, -⟩ := idx_facts t
  unfold iblk
  rw [View.read_apply]
  show V m c main_v5 _ = V m c main_v5 _
  refine congrArg (V m c main_v5) (funext fun a => Fin.ext ?_)
  match a with
  | ⟨0, _⟩ => show win0_4.index t (0 : Fin 2) * 1 + 1 * 0 = 0; rw [e0]
  | ⟨1, _⟩ => show win0_4.index t (1 : Fin 2) * 2048 + 1 * q.val = q.val; rw [e1]; omega

theorem blk5_at (c : Dev nD) (t : Fin cfg0.N) (q : Fin 2048) :
    (iblk m c 5 t : FVec Ideal S1x2048 .f32) (ix2 (0 : Fin 1) q) = (V m c main_v6 : S1x2048.Idx → EReal) (ix2 (0 : Fin 1) q) := by
  obtain ⟨-, -, -, -, -, -, -, -, -, -, e0, e1, -⟩ := idx_facts t
  unfold iblk
  rw [View.read_apply]
  show V m c main_v6 _ = V m c main_v6 _
  refine congrArg (V m c main_v6) (funext fun a => Fin.ext ?_)
  match a with
  | ⟨0, _⟩ => show win0_5.index t (0 : Fin 2) * 1 + 1 * 0 = 0; rw [e0]
  | ⟨1, _⟩ => show win0_5.index t (1 : Fin 2) * 2048 + 1 * q.val = q.val; rw [e1]; omega

theorem blk6_at (c : Dev nD) (t : Fin cfg0.N) (q : Fin 2048) :
    (iblk m c 6 t : FVec Ideal S1x2048 .f32) (ix2 (0 : Fin 1) q) = (V m c main_v7 : S1x2048.Idx → EReal) (ix2 (0 : Fin 1) q) := by
  obtain ⟨-, -, -, -, -, -, -, -, -, -, -, -, e0, e1, -⟩ := idx_facts t
  unfold iblk
  rw [View.read_apply]
  show V m c main_v7 _ = V m c main_v7 _
  refine congrArg (V m c main_v7) (funext fun a => Fin.ext ?_)
  match a with
  | ⟨0, _⟩ => show win0_6.index t (0 : Fin 2) * 1 + 1 * 0 = 0; rw [e0]
  | ⟨1, _⟩ => show win0_6.index t (1 : Fin 2) * 2048 + 1 * q.val = q.val; rw [e1]; omega

/-! ## The results as functions of the arrays the region finds -/

/-- Entry (n, 16·j + s) of the flattened new state, from h, the flattened old state, W transposed, and the
    parameter rows b, a, B. -/
def newStateAt (H : S50000x128.Idx → EReal) (Uf : S50000x2048.Idx → EReal) (Wt : S128x128.Idx → EReal) (b1 : S1x128.Idx → EReal)
    (Af Bf : S1x2048.Idx → EReal) (n : Fin 50000) (j : Fin 128) (s : Fin 16) : EReal :=
  Spec.uElt (Spec.sp (Spec.lin (fun k => H (ix2 n k)) (fun k => Wt (ix2 k j)) (b1 (ix2 (0 : Fin 1) j))))
    (H (ix2 n j)) (Uf (ix2 n (col j s))) (Af (ix2 (0 : Fin 1) (col j s))) (Bf (ix2 (0 : Fin 1) (col j s)))

/-- The hidden unit and the state of a flattened column. -/
abbrev unitOf (q : Fin 2048) : Fin 128 := ⟨q.val / 16, by have := q.isLt; omega⟩
abbrev stateOf (q : Fin 2048) : Fin 16 := ⟨q.val % 16, by omega⟩

theorem col_unit_state (q : Fin 2048) : col (unitOf q) (stateOf q) = q :=
  Fin.ext (by show 16 * (q.val / 16) + q.val % 16 = q.val; omega)

/-- The flattened new-state array. -/
def newState (c : Dev nD) : S50000x2048.Idx → EReal := fun i =>
  newStateAt (V m c main_arg0) (V m c main_v2) (V m c main_v0) (V m c main_v1) (V m c main_v5) (V m c main_v6)
    (i 0) (unitOf (i 1)) (stateOf (i 1))

/-- The output array: the new state against the flattened C, summed over each hidden unit's states. -/
def output (c : Dev nD) : S50000x128.Idx → EReal := fun i =>
  ∑ s : Fin 16, newStateAt (V m c main_arg0) (V m c main_v2) (V m c main_v0) (V m c main_v1) (V m c main_v5) (V m c main_v6)
      (i 0) (i 1) s * (V m c main_v7 : S1x2048.Idx → EReal) (ix2 (0 : Fin 1) (col (i 1) s))

theorem newState_at (c : Dev nD) (n : Fin 50000) (j : Fin 128) (s : Fin 16) :
    newState m c (ix2 n (col j s))
      = newStateAt (V m c main_arg0) (V m c main_v2) (V m c main_v0) (V m c main_v1) (V m c main_v5) (V m c main_v6) n j s := by
  have hj : unitOf (col j s) = j := Fin.ext (by show (16 * j.val + s.val) / 16 = j.val; have := s.isLt; omega)
  have hs : stateOf (col j s) = s := Fin.ext (by show (16 * j.val + s.val) % 16 = s.val; have := s.isLt; omega)
  show newStateAt _ _ _ _ _ _ n (unitOf (col j s)) (stateOf (col j s)) = _
  rw [hj, hs]

/-! ## What a point writes back -/

/-- Entry (p, 16·j + s) of the new-state block point t stores is entry (1000·t + p, 16·j + s) of `newState`. -/
theorem new_state_block (c : Dev nD) (t : Fin cfg0.N) (p : Fin 1000) (j : Fin 128) (s : Fin 16) :
    out0_8 (F := Ideal) (iblk m c 0 t) (iblk m c 1 t) (iblk m c 2 t) (iblk m c 3 t) (iblk m c 4 t) (iblk m c 5 t) (iblk m c 6 t) (ix2 p (col j s))
      = newStateAt (V m c main_arg0) (V m c main_v2) (V m c main_v0) (V m c main_v1) (V m c main_v5) (V m c main_v6) (row t p) j s := by
  refine (out8_at (iblk m c 0 t) (iblk m c 1 t) (iblk m c 2 t) (iblk m c 3 t) (iblk m c 4 t) (iblk m c 5 t) (iblk m c 6 t) p j s).trans ?_
  unfold newStateAt
  simp only [blk0_at, blk1_at, blk2_at, blk3_at, blk4_at, blk5_at]

/-- Entry (p, j) of the output block point t stores. -/
theorem output_block (c : Dev nD) (t : Fin cfg0.N) (p : Fin 1000) (j : Fin 128) :
    out0_7 (F := Ideal) (iblk m c 0 t) (iblk m c 1 t) (iblk m c 2 t) (iblk m c 3 t) (iblk m c 4 t) (iblk m c 5 t) (iblk m c 6 t) (ix2 p j)
      = ∑ s : Fin 16, newStateAt (V m c main_arg0) (V m c main_v2) (V m c main_v0) (V m c main_v1) (V m c main_v5) (V m c main_v6) (row t p) j s
          * (V m c main_v7 : S1x2048.Idx → EReal) (ix2 (0 : Fin 1) (col j s)) := by
  refine (out7_at (iblk m c 0 t) (iblk m c 1 t) (iblk m c 2 t) (iblk m c 3 t) (iblk m c 4 t) (iblk m c 5 t) (iblk m c 6 t) p j).trans ?_
  refine Finset.sum_congr rfl fun s _ => ?_
  rw [new_state_block, blk6_at]

/-- WHAT POINT t WRITES BACK to the new-state array is block t of `newState`. -/
theorem flushed8_eq (c : Dev nD) (t : Fin cfg0.N) :
    (dats m 0 c).flushed 8 t = ((cfg0.win 8).blk t).view.read (Elt Ideal) (newState m c) := by
  obtain ⟨-, -, -, -, -, -, -, -, -, -, -, -, -, -, -, -, e0, e1, -⟩ := idx_facts t
  show (cfg0.win 8).cut (grid0.coords t) ((dats m 0 c).after 8 t) = _
  rw [after0_8]
  funext y
  obtain ⟨p, q, rfl⟩ : ∃ (p : Fin 1000) (q : Fin 2048), y = ix2 p q := ⟨y 0, y 1, eq_ix2 y⟩
  obtain ⟨j, s, rfl⟩ : ∃ (j : Fin 128) (s : Fin 16), q = col j s := ⟨unitOf q, stateOf q, (col_unit_state q).symm⟩
  show out0_8 (F := Ideal) (iblk m c 0 t) (iblk m c 1 t) (iblk m c 2 t) (iblk m c 3 t) (iblk m c 4 t) (iblk m c 5 t) (iblk m c 6 t) (ix2 p (col j s))
    = newState m c (((cfg0.win 8).blk t).view.emb (ix2 p (col j s)))
  have he : ((cfg0.win 8).blk t).view.emb (ix2 p (col j s)) = ix2 (row t p) (col j s) := funext fun a => Fin.ext (by
    match a with
    | ⟨0, _⟩ => show win0_8.index t (0 : Fin 2) * 1000 + 1 * p.val = 1000 * t.val + p.val; rw [e0]; omega
    | ⟨1, _⟩ => show win0_8.index t (1 : Fin 2) * 2048 + 1 * (16 * j.val + s.val) = 16 * j.val + s.val; rw [e1]; omega)
  rw [he, newState_at, new_state_block]

/-- WHAT POINT t WRITES BACK to the output array is block t of `output`. -/
theorem flushed7_eq (c : Dev nD) (t : Fin cfg0.N) :
    (dats m 0 c).flushed 7 t = ((cfg0.win 7).blk t).view.read (Elt Ideal) (output m c) := by
  obtain ⟨-, -, -, -, -, -, -, -, -, -, -, -, -, -, e0, e1, -⟩ := idx_facts t
  show (cfg0.win 7).cut (grid0.coords t) ((dats m 0 c).after 7 t) = _
  rw [after0_7]
  funext y
  obtain ⟨p, j, rfl⟩ : ∃ (p : Fin 1000) (j : Fin 128), y = ix2 p j := ⟨y 0, y 1, eq_ix2 y⟩
  show out0_7 (F := Ideal) (iblk m c 0 t) (iblk m c 1 t) (iblk m c 2 t) (iblk m c 3 t) (iblk m c 4 t) (iblk m c 5 t) (iblk m c 6 t) (ix2 p j)
    = output m c (((cfg0.win 7).blk t).view.emb (ix2 p j))
  have he : ((cfg0.win 7).blk t).view.emb (ix2 p j) = ix2 (row t p) j := funext fun a => Fin.ext (by
    match a with
    | ⟨0, _⟩ => show win0_7.index t (0 : Fin 2) * 1000 + 1 * p.val = 1000 * t.val + p.val; rw [e0]; omega
    | ⟨1, _⟩ => show win0_7.index t (1 : Fin 2) * 128 + 1 * j.val = j.val; rw [e1]; omega)
  rw [he, output_block]
  rfl

/-! ## The cover: every row is in the block of point ⌊row / 1000⌋ -/

theorem mem_blk8 (t : Fin cfg0.N) (i : S50000x2048.Idx) :
    i ∈ ((cfg0.win 8).blk t).view.set ↔ ∀ a : Fin 2, win0_8.index t a * S1000x2048.size a ≤ (i a).val ∧ (i a).val < win0_8.index t a * S1000x2048.size a + S1000x2048.size a := by
  show i ∈ ((View.whole main_v8_1).slice (win0_8.rect t)).set ↔ _
  rw [View.set_slice_whole, Rect.mem_set_unit]
  exact Iff.rfl

theorem mem_blk7 (t : Fin cfg0.N) (i : S50000x128.Idx) :
    i ∈ ((cfg0.win 7).blk t).view.set ↔ ∀ a : Fin 2, win0_7.index t a * S1000x128.size a ≤ (i a).val ∧ (i a).val < win0_7.index t a * S1000x128.size a + S1000x128.size a := by
  show i ∈ ((View.whole main_v8_0).slice (win0_7.rect t)).set ↔ _
  rw [View.set_slice_whole, Rect.mem_set_unit]
  exact Iff.rfl

/-- The point whose block holds array row r. -/
abbrev pointOf (r : Fin 50000) : Fin cfg0.N := ⟨r.val / 1000, by rw [show cfg0.N = 50 from N_0]; have := r.isLt; omega⟩

theorem cover8 (i : S50000x2048.Idx) : ∃ t : Fin cfg0.N, (cfg0.win 8).flush t = true ∧ i ∈ ((cfg0.win 8).blk t).view.set := by
  have h0 : (i 0).val < 50000 := (i 0).isLt
  have h1 : (i 1).val < 2048 := (i 1).isLt
  obtain ⟨-, -, -, -, -, -, -, -, -, -, -, -, -, -, -, -, e0, e1, -⟩ := idx_facts (pointOf (i 0))
  have ht : (pointOf (i 0)).val = (i 0).val / 1000 := rfl
  refine ⟨pointOf (i 0), flush0_8 _, ?_⟩
  rw [mem_blk8]
  intro a
  match a with
  | ⟨0, _⟩ => show win0_8.index (pointOf (i 0)) (0 : Fin 2) * 1000 ≤ (i 0).val ∧ (i 0).val < win0_8.index (pointOf (i 0)) (0 : Fin 2) * 1000 + 1000; rw [e0, ht]; omega
  | ⟨1, _⟩ => show win0_8.index (pointOf (i 0)) (1 : Fin 2) * 2048 ≤ (i 1).val ∧ (i 1).val < win0_8.index (pointOf (i 0)) (1 : Fin 2) * 2048 + 2048; rw [e1]; omega

theorem cover7 (i : S50000x128.Idx) : ∃ t : Fin cfg0.N, (cfg0.win 7).flush t = true ∧ i ∈ ((cfg0.win 7).blk t).view.set := by
  have h0 : (i 0).val < 50000 := (i 0).isLt
  have h1 : (i 1).val < 128 := (i 1).isLt
  obtain ⟨-, -, -, -, -, -, -, -, -, -, -, -, -, -, e0, e1, -⟩ := idx_facts (pointOf (i 0))
  have ht : (pointOf (i 0)).val = (i 0).val / 1000 := rfl
  refine ⟨pointOf (i 0), flush0_7 _, ?_⟩
  rw [mem_blk7]
  intro a
  match a with
  | ⟨0, _⟩ => show win0_7.index (pointOf (i 0)) (0 : Fin 2) * 1000 ≤ (i 0).val ∧ (i 0).val < win0_7.index (pointOf (i 0)) (0 : Fin 2) * 1000 + 1000; rw [e0, ht]; omega
  | ⟨1, _⟩ => show win0_7.index (pointOf (i 0)) (1 : Fin 2) * 128 ≤ (i 1).val ∧ (i 1).val < win0_7.index (pointOf (i 0)) (1 : Fin 2) * 128 + 128; rw [e1]; omega

/-! ## The two arrays after the run -/

theorem final8 (c : Dev nD) : (dats m 0 c).arrAt 8 cfg0.N = newState m c :=
  (dats m 0 c).arrAt_eq_of_cover 8 (newState m c) (fun t _ => flushed8_eq m c t) cover8

theorem final7 (c : Dev nD) : (dats m 0 c).arrAt 7 cfg0.N = output m c :=
  (dats m 0 c).arrAt_eq_of_cover 7 (output m c) (fun t _ => flushed7_eq m c t) cover7

end Cert.KernelIdeal.Hand

end
-- ==== Proof.KernelValue.lean ====
/-
  The kernel's two results as functions of its arguments.

  Around the region the program only re-lays arrays out: before it, W is transposed, b becomes a [1,128]
  row, the old state [50000,128,16] is flattened to [50000,2048] (entry (n,j,s) goes to column 16·j + s), and
  a = −exp logA, B and C are flattened from [128,16] to [1,2048] the same way; after it, the flattened new
  state is cut back to [50000,128,16].  Read at an entry, each of these names one entry of an argument, and
  with them the region's two arrays (`Hand.output`, `Hand.newState`) become `Spec.Y` and `Spec.U` of the
  arguments as launched.
-/
import proofs.«143947_j76132590289374_2_alg».proof.Proof.Blocks
import Idealize.ShloMosaic.Lib.StableHlo.Run
import Idealize.ShloMosaic.Lib.ValueLayout

noncomputable section

namespace Cert.KernelIdeal.Hand

open Cert.KernelIdeal Cert.KernelIdeal.Gen Cert.KernelIdeal.Point
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Flattening the last two axes, read at an entry -/

section Layout
variable {α : Type}

/-- [R,128,16] flattened to [R,2048]: column 16·j + s of row n is entry (n, j, s). -/
theorem flatten_rows_apply {R : Nat} (x : (⟨3, ![R, 128, 16]⟩ : Shape).Idx → α)
    (h : (⟨3, ![R, 128, 16]⟩ : Shape).ShapeCasts ⟨2, ![R, 2048]⟩) (n : Fin R) (j : Fin 128) (s : Fin 16) :
    shapeCast ⟨2, ![R, 2048]⟩ x h (ix2 n (col j s)) = x (ix3 n j s) := by
  refine shapeCast_apply x h (ix2 n (col j s)) (ix3 n j s) ?_
  rw [Shape.rowMajor_val_three, Shape.rowMajor_val_two]
  show (n.val * 128 + j.val) * 16 + s.val = n.val * 2048 + (16 * j.val + s.val)
  omega

/-- [R,2048] cut back to [R,128,16]: entry (n, j, s) is column 16·j + s of row n. -/
theorem unflatten_rows_apply {R : Nat} (x : (⟨2, ![R, 2048]⟩ : Shape).Idx → α)
    (h : (⟨2, ![R, 2048]⟩ : Shape).ShapeCasts ⟨3, ![R, 128, 16]⟩) (n : Fin R) (j : Fin 128) (s : Fin 16) :
    shapeCast ⟨3, ![R, 128, 16]⟩ x h (ix3 n j s) = x (ix2 n (col j s)) := by
  refine shapeCast_apply x h (ix3 n j s) (ix2 n (col j s)) ?_
  rw [Shape.rowMajor_val_three, Shape.rowMajor_val_two]
  show n.val * 2048 + (16 * j.val + s.val) = (n.val * 128 + j.val) * 16 + s.val
  omega

/-- A [128,16] parameter flattened to one row [1,2048]: column 16·j + s is entry (j, s). -/
theorem flatten_param_apply (x : (⟨2, ![128, 16]⟩ : Shape).Idx → α)
    (h : (⟨2, ![128, 16]⟩ : Shape).ShapeCasts ⟨2, ![1, 2048]⟩) (j : Fin 128) (s : Fin 16) :
    shapeCast ⟨2, ![1, 2048]⟩ x h (ix2 (0 : Fin 1) (col j s)) = x (ix2 j s) := by
  refine shapeCast_apply x h (ix2 (0 : Fin 1) (col j s)) (ix2 j s) ?_
  rw [Shape.rowMajor_val_two, Shape.rowMajor_val_two]
  show j.val * 16 + s.val = 0 * 2048 + (16 * j.val + s.val)
  omega

end Layout

/-! ## The arrays the region finds, as the host operations before it leave them -/

theorem found_u (c : Dev nD) : (V m c main_v2 : S50000x2048.Idx → EReal)
    = shapeCast S50000x2048 (m ((c : Thread nD τ).loc main_arg1) : S50000x128x16.Idx → EReal) shapeCasts_S50000x128x16_S50000x2048 := by
  show StableHlo.after hostOps0 (fun b => m (c, b)) (Proc.devRef .tc main_v2) = _
  after_results <;> rfl

theorem found_Wt (c : Dev nD) : (V m c main_v0 : S128x128.Idx → EReal)
    = transpose S128x128 [1, 0] (m ((c : Thread nD τ).loc main_arg2) : S128x128.Idx → EReal) transposes_S128x128_S128x128_1_0 := by
  show StableHlo.after hostOps0 (fun b => m (c, b)) (Proc.devRef .tc main_v0) = _
  after_results <;> rfl

theorem found_b (c : Dev nD) : (V m c main_v1 : S1x128.Idx → EReal)
    = shapeCast S1x128 (m ((c : Thread nD τ).loc main_arg3) : S128.Idx → EReal) shapeCasts_S128_S1x128 := by
  show StableHlo.after hostOps0 (fun b => m (c, b)) (Proc.devRef .tc main_v1) = _
  after_results <;> rfl

theorem found_a (c : Dev nD) : (V m c main_v5 : S1x2048.Idx → EReal)
    = shapeCast S1x2048 (Host.negf (F := Ideal) (φ := .f32) (Host.exp (F := Ideal) (φ := .f32) (m ((c : Thread nD τ).loc main_arg4) : S128x16.Idx → EReal)))
        shapeCasts_S128x16_S1x2048 := by
  show StableHlo.after hostOps0 (fun b => m (c, b)) (Proc.devRef .tc main_v5) = _
  after_results <;> rfl

theorem found_B (c : Dev nD) : (V m c main_v6 : S1x2048.Idx → EReal)
    = shapeCast S1x2048 (m ((c : Thread nD τ).loc main_arg5) : S128x16.Idx → EReal) shapeCasts_S128x16_S1x2048 := by
  show StableHlo.after hostOps0 (fun b => m (c, b)) (Proc.devRef .tc main_v6) = _
  after_results <;> rfl

theorem found_C (c : Dev nD) : (V m c main_v7 : S1x2048.Idx → EReal)
    = shapeCast S1x2048 (m ((c : Thread nD τ).loc main_arg6) : S128x16.Idx → EReal) shapeCasts_S128x16_S1x2048 := by
  show StableHlo.after hostOps0 (fun b => m (c, b)) (Proc.devRef .tc main_v7) = _
  after_results <;> rfl

/-! ### … read at an entry -/

theorem u_at (c : Dev nD) (n : Fin 50000) (j : Fin 128) (s : Fin 16) :
    (V m c main_v2 : S50000x2048.Idx → EReal) (ix2 n (col j s)) = (m ((c : Thread nD τ).loc main_arg1) : S50000x128x16.Idx → EReal) (ix3 n j s) := by
  rw [found_u]; exact flatten_rows_apply _ _ n j s

/-- Entry (k, j) of the transposed W is W(j, k). -/
theorem Wt_at (c : Dev nD) (k j : Fin 128) :
    (V m c main_v0 : S128x128.Idx → EReal) (ix2 k j) = (m ((c : Thread nD τ).loc main_arg2) : S128x128.Idx → EReal) (ix2 j k) := by
  rw [found_Wt]
  refine transpose_apply [1, 0] _ transposes_S128x128_S128x128_1_0 (ix2 k j) (ix2 j k) (fun b => ?_)
  match b with
  | ⟨0, _⟩ => rfl
  | ⟨1, _⟩ => rfl

theorem b_at (c : Dev nD) (j : Fin 128) :
    (V m c main_v1 : S1x128.Idx → EReal) (ix2 (0 : Fin 1) j) = (m ((c : Thread nD τ).loc main_arg3) : S128.Idx → EReal) (ix1 j) := by
  rw [found_b]
  refine shapeCast_apply _ shapeCasts_S128_S1x128 (ix2 (0 : Fin 1) j) (ix1 j) ?_
  rw [Shape.rowMajor_val_one, Shape.rowMajor_val_two]
  show j.val = 0 * 128 + j.val
  omega

theorem a_at (c : Dev nD) (j : Fin 128) (s : Fin 16) :
    (V m c main_v5 : S1x2048.Idx → EReal) (ix2 (0 : Fin 1) (col j s))
      = -(Ideal.exp ((m ((c : Thread nD τ).loc main_arg4) : S128x16.Idx → EReal) (ix2 j s))) := by
  rw [found_a]
  refine (flatten_param_apply _ _ j s).trans ?_
  rfl

theorem B_at (c : Dev nD) (j : Fin 128) (s : Fin 16) :
    (V m c main_v6 : S1x2048.Idx → EReal) (ix2 (0 : Fin 1) (col j s)) = (m ((c : Thread nD τ).loc main_arg5) : S128x16.Idx → EReal) (ix2 j s) := by
  rw [found_B]; exact flatten_param_apply _ _ j s

theorem C_at (c : Dev nD) (j : Fin 128) (s : Fin 16) :
    (V m c main_v7 : S1x2048.Idx → EReal) (ix2 (0 : Fin 1) (col j s)) = (m ((c : Thread nD τ).loc main_arg6) : S128x16.Idx → EReal) (ix2 j s) := by
  rw [found_C]; exact flatten_param_apply _ _ j s

/-! ## The region's arrays are the specification, in the flattened layout -/

/-- Column 16·j + s of row n of the region's new-state array is u'(n, j, s). -/
theorem newState_value (c : Dev nD) (n : Fin 50000) (j : Fin 128) (s : Fin 16) :
    newState m c (ix2 n (col j s))
      = Spec.U (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix3 n j s) := by
  have hH : (V m c main_arg0 : S50000x128.Idx → EReal) = m ((c : Thread nD τ).loc main_arg0) := V_main_arg0 m c
  have hW : (fun k : Fin 128 => (V m c main_v0 : S128x128.Idx → EReal) (ix2 k j))
      = fun k : Fin 128 => (m ((c : Thread nD τ).loc main_arg2) : S128x128.Idx → EReal) (ix2 j k) := funext fun k => Wt_at m c k j
  rw [newState_at]
  show Spec.uElt (Spec.sp (Spec.lin (fun k => (V m c main_arg0 : S50000x128.Idx → EReal) (ix2 n k))
        (fun k : Fin 128 => (V m c main_v0 : S128x128.Idx → EReal) (ix2 k j)) ((V m c main_v1 : S1x128.Idx → EReal) (ix2 (0 : Fin 1) j))))
      ((V m c main_arg0 : S50000x128.Idx → EReal) (ix2 n j)) ((V m c main_v2 : S50000x2048.Idx → EReal) (ix2 n (col j s)))
      ((V m c main_v5 : S1x2048.Idx → EReal) (ix2 (0 : Fin 1) (col j s))) ((V m c main_v6 : S1x2048.Idx → EReal) (ix2 (0 : Fin 1) (col j s))) = _
  rw [hW, u_at, b_at, a_at, B_at, hH]
  rfl

/-- The region's output array is y. -/
theorem output_value (c : Dev nD) :
    output m c
      = Spec.Y (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext i
  obtain ⟨n, j, rfl⟩ : ∃ (n : Fin 50000) (j : Fin 128), i = ix2 n j := ⟨i 0, i 1, eq_ix2 i⟩
  show (∑ s : Fin 16, newStateAt (V m c main_arg0) (V m c main_v2) (V m c main_v0) (V m c main_v1) (V m c main_v5) (V m c main_v6) n j s
      * (V m c main_v7 : S1x2048.Idx → EReal) (ix2 (0 : Fin 1) (col j s))) = _
  refine Finset.sum_congr rfl fun s _ => ?_
  rw [← newState_at, newState_value, C_at]

/-! ## The reshape after the region -/

/-- The program's second result: the region's new-state array cut back to [50000,128,16]. -/
theorem tail_eq (c : Dev nD) :
    (Pipeline.afterTail₀ cfgs (dats m) 0 (V0 m) [hostOps1] c main_v9 : S50000x128x16.Idx → EReal)
      = shapeCast S50000x128x16 (newState m c) shapeCasts_S50000x2048_S50000x128x16 := by
  have hw : (Pipeline.withArrays (cfgs 0).spec c (V0 m c) (fun w => (dats m 0 c).arrAt w (cfgs 0).N) (Proc.devRef .tc main_v8_1)
      : S50000x2048.Idx → EReal) = newState m c :=
    (Pipeline.withArrays_arr spec0 launch0.win.arr_inj c _ _ 8).trans (final8 m c)
  unfold Pipeline.afterTail₀
  show StableHlo.after hostOps1 _ (Proc.devRef .tc main_v9) = _
  after_results
  show shapeCast S50000x128x16 (Pipeline.withArrays (cfgs 0).spec c (V0 m c) (fun w => (dats m 0 c).arrAt w (cfgs 0).N) (Proc.devRef .tc main_v8_1)
      : S50000x2048.Idx → EReal) shapeCasts_S50000x2048_S50000x128x16 = _
  rw [hw]

/-- … is u'. -/
theorem tail_value (c : Dev nD) :
    (Pipeline.afterTail₀ cfgs (dats m) 0 (V0 m) [hostOps1] c main_v9 : S50000x128x16.Idx → EReal)
      = Spec.U (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_eq]
  funext i
  obtain ⟨n, j, s, rfl⟩ : ∃ (n : Fin 50000) (j : Fin 128) (s : Fin 16), i = ix3 n j s := ⟨i 0, i 1, i 2, eq_ix3 i⟩
  rw [unflatten_rows_apply, newState_value]

/-! ## The run -/

/-- Every weakly fair execution of the idealized kernel program terminates with its two results at y and u'
    of the arguments as launched, and the arguments unchanged. -/
theorem run : θ_run defs (onTc (τ := τ) (main (F := Ideal))) ⟨m, fun _ => 0, ρ⟩ fun r => ∀ c : Dev nD,
      r.2.mem ((c.tc : Thread nD τ).loc main_v8_0)
        = Spec.Y (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_v9)
        = Spec.U (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).1 7).trans (final7 m c)).trans (output_value m c),
      ((h c).2 main_v9 (Pipeline.mem_restRefs_of main_v9 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.RefValue.lean ====
/-
  The reference, read entry by entry, is the specification.

  The jnp reference is a straight line of elementwise operations, broadcasts, one matrix product and one
  sum over the state axis.  Each stage read at an index names the entries of the arguments it depends on;
  followed from the results back to the arguments, entry (n,j,s) of the new state reads row n of h, row j
  of W, b(j), u(n,j,s), logA(j,s), B(j,s), and entry (n,j) of the output sums the new state against C(j,·)
  over s, starting from zero — the formulas of `Cert.Spec`.
-/
import proofs.«143947_j76132590289374_2_alg».proof.Proof.Gen.ReferenceIdeal.Read
import proofs.«143947_j76132590289374_2_alg».proof.Proof.Spec
import Idealize.ShloMosaic.PureOps.Ideal.Laws

noncomputable section

namespace Cert.ReferenceIdeal.RefValue

open Cert.ReferenceIdeal Cert.ReferenceIdeal.Read Idealize.ShloMosaic Idealize.ShloMosaic.TcCoe Idealize.SL.Sem
open Idealize.ShloMosaic.ValueIdx

variable (x0 : (⟨S50000x128, .f32⟩ : BufTy).Contents (Elt Ideal)) (x1 : (⟨S50000x128x16, .f32⟩ : BufTy).Contents (Elt Ideal))
  (x2 : (⟨S128x128, .f32⟩ : BufTy).Contents (Elt Ideal)) (x3 : (⟨S128, .f32⟩ : BufTy).Contents (Elt Ideal))
  (x4 x5 x6 : (⟨S128x16, .f32⟩ : BufTy).Contents (Elt Ideal))

/-! ## Which entries each stage reads -/

theorem lhs_row (n : Fin 50000) (j k : Fin 128) : lidx_main_v1 (ix2 n j) k = ix2 n k :=
  funext fun a => Fin.ext (by match a with | ⟨0, _⟩ => rfl | ⟨1, _⟩ => rfl)

/-- The product's right operand is W transposed: its entry (k, j) is W(j, k). -/
theorem rhs_row (n : Fin 50000) (j k : Fin 128) : idx_main_v0 (ridx_main_v1 (ix2 n j) k) = ix2 j k :=
  funext fun a => Fin.ext (by match a with | ⟨0, _⟩ => rfl | ⟨1, _⟩ => rfl)

theorem bias_at (n : Fin 50000) (j : Fin 128) : idx_main_v2 (idx_main_v3 (ix2 n j)) = ix1 j :=
  funext fun a => Fin.ext (by match a with | ⟨0, _⟩ => rfl)

theorem step_at_exp (n : Fin 50000) (j : Fin 128) (s : Fin 16) : idx_main_v8 (idx_main_v10 (ix3 n j s)) = ix2 n j :=
  funext fun a => Fin.ext (by match a with | ⟨0, _⟩ => rfl | ⟨1, _⟩ => rfl)

theorem decay_at (n : Fin 50000) (j : Fin 128) (s : Fin 16) : idx_main_v9 (idx_main_v11 (ix3 n j s)) = ix2 j s :=
  funext fun a => Fin.ext (by match a with | ⟨0, _⟩ => rfl | ⟨1, _⟩ => rfl)

theorem step_at_in (n : Fin 50000) (j : Fin 128) (s : Fin 16) : idx_main_v8 (idx_main_v17 (ix3 n j s)) = ix2 n j :=
  funext fun a => Fin.ext (by match a with | ⟨0, _⟩ => rfl | ⟨1, _⟩ => rfl)

theorem h_at (n : Fin 50000) (j : Fin 128) (s : Fin 16) : idx_main_v14 (idx_main_v17 (ix3 n j s)) = ix2 n j :=
  funext fun a => Fin.ext (by match a with | ⟨0, _⟩ => rfl | ⟨1, _⟩ => rfl)

theorem inmat_at (n : Fin 50000) (j : Fin 128) (s : Fin 16) : idx_main_v16 (idx_main_v18 (ix3 n j s)) = ix2 j s :=
  funext fun a => Fin.ext (by match a with | ⟨0, _⟩ => rfl | ⟨1, _⟩ => rfl)

theorem outmat_at (n : Fin 50000) (j : Fin 128) (s : Fin 16) : idx_main_v22 (idx_main_v23 (ix3 n j s)) = ix2 j s :=
  funext fun a => Fin.ext (by match a with | ⟨0, _⟩ => rfl | ⟨1, _⟩ => rfl)

theorem summand_at (n : Fin 50000) (j : Fin 128) (s : Fin 16) : idx_main_v25 (ix2 n j) s = ix3 n j s :=
  funext fun a => Fin.ext (by match a with | ⟨0, _⟩ => rfl | ⟨1, _⟩ => rfl | ⟨2, _⟩ => rfl)

/-! ## The stages -/

/-- The linear layer at (n, j): row n of h against row j of W, plus b(j). -/
theorem lin_at (n : Fin 50000) (j : Fin 128) :
    val_main_v4 (F := Ideal) x0 x2 x3 (ix2 n j) = Spec.lin (fun k => x0 (ix2 n k)) (fun k => x2 (ix2 j k)) (x3 (ix1 j)) := by
  rw [val_main_v4_apply, val_main_v1_apply, val_main_v3_apply, val_main_v2_apply]
  simp only [val_main_v0_apply, lhs_row, rhs_row, bias_at]
  rfl

/-- The outlined softplus, entry by entry, is `Spec.sp` of the entry: x − 0 and x + 0 are x, and the
    host's |x| and −x are the extended reals' max(x, −x) and negation. -/
theorem softplus_at (i : S50000x128.Idx) :
    val_main_v5 (F := Ideal) x0 x2 x3 i = Spec.sp (val_main_v4 (F := Ideal) x0 x2 x3 i) := by
  simp only [val_main_v5_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  generalize val_main_v4 (F := Ideal) x0 x2 x3 i = x
  simp only [Ideal.ofBits_def, Ideal.ofBits_zero_f32, Ideal.subf_def, Ideal.addf_def, Ideal.maximumf_def,
    Ideal.hostAbsf_def, Ideal.absf_def, Ideal.hostNegf_def, Ideal.negf_def, Ideal.hostUnary_exp_def,
    Ideal.hostUnary_log1p_def, Ideal.cmpf_def, sub_zero, add_zero]
  rfl

/-- The step size at (n, j). -/
theorem delta_at (n : Fin 50000) (j : Fin 128) :
    val_main_v5 (F := Ideal) x0 x2 x3 (ix2 n j) = Spec.delta x0 x2 x3 n j := by
  rw [softplus_at, lin_at]; rfl

/-- The new state at (n, j, s). -/
theorem U_at (n : Fin 50000) (j : Fin 128) (s : Fin 16) :
    val_main_v21 (F := Ideal) x0 x1 x2 x3 x4 x5 (ix3 n j s) = Spec.U x0 x1 x2 x3 x4 x5 (ix3 n j s) := by
  simp only [val_main_v21_apply, val_main_v20_apply, val_main_v19_apply, val_main_v13_apply, val_main_v12_apply,
    val_main_v10_apply, val_main_v11_apply, val_main_v9_apply, val_main_v7_apply, val_main_v6_apply, val_main_v8_apply,
    val_main_v17_apply, val_main_v18_apply, val_main_v16_apply, val_main_v15_apply, val_main_v14_apply,
    step_at_exp, decay_at, step_at_in, h_at, inmat_at, delta_at]
  rfl

/-- The output at (n, j): zero plus the sum over the state axis. -/
theorem Y_at (n : Fin 50000) (j : Fin 128) :
    val_main_v25 (F := Ideal) x0 x1 x2 x3 x4 x5 x6 (ix2 n j) = Spec.Y x0 x1 x2 x3 x4 x5 x6 (ix2 n j) := by
  rw [val_main_v25_apply, val_main_cst_apply]
  simp only [val_main_v24_apply, val_main_v23_apply, val_main_v22_apply, summand_at, outmat_at, U_at,
    Ideal.ofBits_def, Ideal.ofBits_zero_f32, zero_add]
  rfl

/-! ## The two results of the reference's run -/

variable (m : (ℓ : Loc nD τ sig) → Buf (Elt Ideal) ℓ) (c : Dev nD)

/-- The reference's first result is the output y. -/
theorem result_Y : Cert.ReferenceIdeal.Value.res_main_v25 (F := Ideal) m c
    = Spec.Y (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  rw [val_main_v25_eq]
  funext i
  obtain ⟨n, j, rfl⟩ : ∃ (n : Fin 50000) (j : Fin 128), i = ix2 n j := ⟨i 0, i 1, eq_ix2 i⟩
  exact Y_at _ _ _ _ _ _ _ n j

/-- The reference's second result is the new state u'. -/
theorem result_U : Cert.ReferenceIdeal.Value.res_main_v21 (F := Ideal) m c
    = Spec.U (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [val_main_v21_eq]
  funext i
  obtain ⟨n, j, s, rfl⟩ : ∃ (n : Fin 50000) (j : Fin 128) (s : Fin 16), i = ix3 n j s := ⟨i 0, i 1, i 2, eq_ix3 i⟩
  exact U_at _ _ _ _ _ _ n j s

end Cert.ReferenceIdeal.RefValue

end
-- ==== Proof.lean ====
/-
  One selective-state-space step, 50000 rows at once: the Pallas kernel against its jnp reference, equal
  as extended reals.

  For row n, hidden unit j (of 128) and state s (of 16), with δ(n,j) = softplus(Σ_k h(n,k)·W(j,k) + b(j)):

      u'(n,j,s) = u(n,j,s) · exp(δ(n,j) · (−exp logA(j,s))) + (δ(n,j) · h(n,j)) · B(j,s)
      y(n,j)    = Σ_s u'(n,j,s) · C(j,s)                                   (`Cert.Spec`: `U`, `Y`)

  The reference computes exactly this on [50000,128,16] arrays, by broadcasts (`Proof/RefValue.lean`, over
  the generated reading of its run).  The kernel flattens the last two axes to one of 2048 (column 16·j + s),
  walks the rows in 50 blocks of 1000, repeats δ and h sixteen times along the row so that everything is
  entrywise on [1000,2048], sums each hidden unit's sixteen columns for y, and the program cuts the
  flattened new state back to [50000,128,16] afterwards (`Proof/Point.lean`: one block, entry by entry;
  `Proof/Blocks.lean`: the blocks tile the rows, so each result array is one function of the inputs;
  `Proof/KernelValue.lean`: the re-layouts around the region, and the run).  The two programs perform the
  same operations in the same order on the same entries — only the layout and the blocking differ —, so no
  law of arithmetic is needed beyond x − 0 = x, x + 0 = x, 0 − x = −x and 0 + x = x for the zero literal,
  and the precondition (finite inputs) is never opened.

  The three frames are the generated ones (the reference's is its generated run with the results dropped),
  and the idealization rewrote nothing, so `preserves` is `True`.
-/
import proofs.«143947_j76132590289374_2_alg».proof.Defs
import proofs.«143947_j76132590289374_2_alg».proof.Proof.Gen.Kernel
import proofs.«143947_j76132590289374_2_alg».proof.Proof.Gen.Kernel.Frame
import proofs.«143947_j76132590289374_2_alg».proof.Proof.Gen.KernelIdeal
import proofs.«143947_j76132590289374_2_alg».proof.Proof.Gen.KernelIdeal.Frame
import proofs.«143947_j76132590289374_2_alg».proof.Proof.Gen.ReferenceIdeal
import proofs.«143947_j76132590289374_2_alg».proof.Proof.Gen.ReferenceIdeal.Run
import proofs.«143947_j76132590289374_2_alg».proof.Proof.Gen.ReferenceIdeal.Read
import proofs.«143947_j76132590289374_2_alg».proof.Proof.Gen.Pre_finite_inputs
import proofs.«143947_j76132590289374_2_alg».proof.Proof.KernelValue
import proofs.«143947_j76132590289374_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with y and u' of the arguments (`Hand.run`; the reference's run read by `result_Y`,
    `result_U`), and the arguments agree. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [Cert.ReferenceIdeal.RefValue.result_Y, a0, a1, a2, a3, a4, a5, a6]
  · rw [Cert.ReferenceIdeal.RefValue.result_U, a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
